-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v113) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S50000x8 : Shape := ⟨2, ![50000, 8]⟩
abbrev S8x16 : Shape := ⟨2, ![8, 16]⟩
abbrev S8 : Shape := ⟨1, ![8]⟩
abbrev S1x8 : Shape := ⟨2, ![1, 8]⟩
abbrev S_ : Shape := ⟨0, ![]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_

variable [Facts]

def fn_part2 {F : FTy → Type} [FloatOps F] (main_arg9 : FVec F S50000x8 .f32) (main_arg10 : FVec F S50000x8 .f32) (main_v33 : IVec S_ 1) : IVec S_ 1 :=
  let main_v34 : FVec F S50000x8 .f32 := Host.absf main_arg9
  let main_cst_12 : FVec F S_ .f32 := constant S_ .f32 0x7F800000#32
  let main_v35 : FVec F S50000x8 .f32 := broadcastInDim S50000x8 ![] bcast_S_S50000x8 main_cst_12
  let main_v36 : IVec S50000x8 1 := cmpf .olt main_v34 main_v35
  let main_c_13 : IVec S_ 1 := constantI S_ 1 1#1
  let main_v37 : IVec S_ 1 := (fun x v => Host.reduce IntOp.andi x v reducesTo_S50000x8_S_d0_1 h_S_) main_v36 main_c_13
  let main_v38 : IVec S_ 1 := andi main_v33 main_v37
  let main_v39 : FVec F S50000x8 .f32 := Host.absf main_arg10
  let main_cst_14 : FVec F S_ .f32 := constant S_ .f32 0x7F800000#32
  let main_v40 : FVec F S50000x8 .f32 := broadcastInDim S50000x8 ![] bcast_S_S50000x8 main_cst_14
  let main_v41 : IVec S50000x8 1 := cmpf .olt main_v39 main_v40
  let main_c_15 : IVec S_ 1 := constantI S_ 1 1#1
  let main_v42 : IVec S_ 1 := (fun x v => Host.reduce IntOp.andi x v reducesTo_S50000x8_S_d0_1 h_S_) main_v41 main_c_15
  let main_v43 : IVec S_ 1 := andi main_v38 main_v42
  main_v43

def fn_part1 {F : FTy → Type} [FloatOps F] (main_arg6 : FVec F S8x16 .f32) (main_arg7 : FVec F S8 .f32) (main_arg8 : FVec F S1x8 .f32) (main_arg9 : FVec F S50000x8 .f32) (main_arg10 : FVec F S50000x8 .f32) (main_v13 : IVec S_ 1) (main_v16 : IVec S50000x8 1) : IVec S_ 1 :=
  let main_c_5 : IVec S_ 1 := constantI S_ 1 1#1
  let main_v17 : IVec S_ 1 := (fun x v => Host.reduce IntOp.andi x v reducesTo_S50000x8_S_d0_1 h_S_) main_v16 main_c_5
  let main_v18 : IVec S_ 1 := andi main_v13 main_v17
  let main_v19 : FVec F S8x16 .f32 := Host.absf main_arg6
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S1x8 .f32 := Host.absf main_arg8
  let main_cst_10 : FVec F S_ .f32 := constant S_ .f32 0x7F800000#32
  let main_v30 : FVec F S1x8 .f32 := broadcastInDim S1x8 ![] bcast_S_S1x8 main_cst_10
  let main_v31 : IVec S1x8 1 := cmpf .olt main_v29 main_v30
  let main_c_11 : IVec S_ 1 := constantI S_ 1 1#1
  let main_v32 : IVec S_ 1 := (fun x v => Host.reduce IntOp.andi x v reducesTo_S1x8_S_d0_1 h_S_) main_v31 main_c_11
  let main_v33 : IVec S_ 1 := andi main_v28 main_v32
  fn_part2 (F := F) main_arg9 main_arg10 main_v33

def fn {F : FTy → Type} [FloatOps F] (main_arg0 : IVec S8192x2 32) (main_arg1 : IVec S8192x2 32) (main_arg2 : FVec F S50000x8 .f32) (main_arg3 : FVec F S50000x8 .f32) (main_arg4 : FVec F S50000x8 .f32) (main_arg5 : FVec F S50000x8 .f32) (main_arg6 : FVec F S8x16 .f32) (main_arg7 : FVec F S8 .f32) (main_arg8 : FVec F S1x8 .f32) (main_arg9 : FVec F S50000x8 .f32) (main_arg10 : FVec F S50000x8 .f32) : IVec S_ 1 :=
  let main_v0 : FVec F S50000x8 .f32 := Host.absf main_arg2
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S50000x8 .f32 := Host.absf main_arg3
  let main_cst_0 : FVec F S_ .f32 := constant S_ .f32 0x7F800000#32
  let main_v5 : FVec F S50000x8 .f32 := broadcastInDim S50000x8 ![] bcast_S_S50000x8 main_cst_0
  let main_v6 : IVec S50000x8 1 := cmpf .olt main_v4 main_v5
  let main_c_1 : IVec S_ 1 := constantI S_ 1 1#1
  let main_v7 : IVec S_ 1 := (fun x v => Host.reduce IntOp.andi x v reducesTo_S50000x8_S_d0_1 h_S_) main_v6 main_c_1
  let main_v8 : IVec S_ 1 := andi main_v3 main_v7
  let main_v9 : FVec F S50000x8 .f32 := Host.absf main_arg4
  let main_cst_2 : FVec F S_ .f32 := constant S_ .f32 0x7F800000#32
  let main_v10 : FVec F S50000x8 .f32 := broadcastInDim S50000x8 ![] bcast_S_S50000x8 main_cst_2
  let main_v11 : IVec S50000x8 1 := cmpf .olt main_v9 main_v10
  let main_c_3 : IVec S_ 1 := constantI S_ 1 1#1
  let main_v12 : IVec S_ 1 := (fun x v => Host.reduce IntOp.andi x v reducesTo_S50000x8_S_d0_1 h_S_) main_v11 main_c_3
  let main_v13 : IVec S_ 1 := andi main_v8 main_v12
  let main_v14 : FVec F S50000x8 .f32 := Host.absf main_arg5
  let main_cst_4 : FVec F S_ .f32 := constant S_ .f32 0x7F800000#32
  let main_v15 : FVec F S50000x8 .f32 := broadcastInDim S50000x8 ![] bcast_S_S50000x8 main_cst_4
  let main_v16 : IVec S50000x8 1 := cmpf .olt main_v14 main_v15
  fn_part1 (F := F) main_arg6 main_arg7 main_arg8 main_arg9 main_arg10 main_v13 main_v16
-- ==== Kernel.lean ====
abbrev S8192x2 : Shape := ⟨2, ![8192, 2]⟩
abbrev S50000x8 : Shape := ⟨2, ![50000, 8]⟩
abbrev S8x16 : Shape := ⟨2, ![8, 16]⟩
abbrev S8 : Shape := ⟨1, ![8]⟩
abbrev S1x8 : Shape := ⟨2, ![1, 8]⟩
abbrev S8192x1 : Shape := ⟨2, ![8192, 1]⟩
abbrev S8192 : Shape := ⟨1, ![8192]⟩
abbrev S_ : Shape := ⟨0, ![]⟩
abbrev S8192x8 : Shape := ⟨2, ![8192, 8]⟩
abbrev S8192x16 : Shape := ⟨2, ![8192, 16]⟩
abbrev S1x8192 : Shape := ⟨2, ![1, 8192]⟩
abbrev S16x8192 : Shape := ⟨2, ![16, 8192]⟩
abbrev S8192x8192 : Shape := ⟨2, ![8192, 8192]⟩
abbrev S16x1024 : Shape := ⟨2, ![16, 1024]⟩
abbrev S16x2048 : Shape := ⟨2, ![16, 2048]⟩
abbrev S1024x1 : Shape := ⟨2, ![1024, 1]⟩
abbrev S1x2048 : Shape := ⟨2, ![1, 2048]⟩
abbrev S1024x2048 : Shape := ⟨2, ![1024, 2048]⟩
abbrev S16x512 : Shape := ⟨2, ![16, 512]⟩
abbrev S1x512 : Shape := ⟨2, ![1, 512]⟩
abbrev S1024x512 : Shape := ⟨2, ![1024, 512]⟩
abbrev S16x8 : Shape := ⟨2, ![16, 8]⟩
abbrev S8x1 : Shape := ⟨2, ![8, 1]⟩

abbrev nBuf : Space → Nat
  | .hbm => 152
  | .vmem => 10
  | .smem => 0
  | _ => 0

abbrev hbmTy0_0 (i : Nat) : BufTy := match i % 128 with
  | 0 => ⟨S8192x2, .i32⟩
  | 1 => ⟨S8192x2, .i32⟩
  | 2 => ⟨S50000x8, .f32⟩
  | 3 => ⟨S50000x8, .f32⟩
  | 4 => ⟨S50000x8, .f32⟩
  | 5 => ⟨S50000x8, .f32⟩
  | 6 => ⟨S8x16, .f32⟩
  | 7 => ⟨S8, .f32⟩
  | 8 => ⟨S1x8, .f32⟩
  | 9 => ⟨S50000x8, .f32⟩
  | 10 => ⟨S50000x8, .f32⟩
  | 11 => ⟨S8192x1, .i32⟩
  | 12 => ⟨S8192, .i32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192x8, .f32⟩
  | 22 => ⟨S8192x1, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x8, .f32⟩
  | 33 => ⟨S8192x16, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S8192x16, .f32⟩
  | 41 => ⟨S8192x16, .f32⟩
  | 42 => ⟨S_, .f32⟩
  | 43 => ⟨S8192x16, .f32⟩
  | 44 => ⟨S8192x16, .f32⟩
  | 45 => ⟨S8192x1, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x8, .f32⟩
  | 56 => ⟨S8192x1, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x8, .f32⟩
  | 67 => ⟨S8192x16, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S8192x16, .f32⟩
  | 75 => ⟨S8192x16, .f32⟩
  | 76 => ⟨S_, .f32⟩
  | 77 => ⟨S8192x16, .f32⟩
  | 78 => ⟨S8192x16, .f32⟩
  | 79 => ⟨S8192x16, .f32⟩
  | 80 => ⟨S_, .f32⟩
  | 81 => ⟨S8192, .f32⟩
  | 82 => ⟨S8192x1, .f32⟩
  | 83 => ⟨S8192x16, .f32⟩
  | 84 => ⟨S_, .f32⟩
  | 85 => ⟨S8192, .f32⟩
  | 86 => ⟨S8192x1, .f32⟩
  | 87 => ⟨S1x8192, .f32⟩
  | 88 => ⟨S8192x16, .bf16⟩
  | 89 => ⟨S16x8192, .bf16⟩
  | 90 => ⟨S8192x16, .bf16⟩
  | 91 => ⟨S16x8192, .bf16⟩
  | 92 => ⟨S8192x8192, .f32⟩
  | 93 => ⟨S8192x1, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x8, .f32⟩
  | 104 => ⟨S8192x1, .i32⟩
  | 105 => ⟨S8192, .i32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x8, .f32⟩
  | 115 => ⟨S8192x16, .f32⟩
  | 116 => ⟨S16x8, .f32⟩
  | 117 => ⟨S8192x8, .f32⟩
  | 118 => ⟨S1x8, .f32⟩
  | 119 => ⟨S8192x8, .f32⟩
  | 120 => ⟨S8192x8, .f32⟩
  | 121 => ⟨S_, .f32⟩
  | 122 => ⟨S8192x8, .f32⟩
  | 123 => ⟨S8192x8, .f32⟩
  | 124 => ⟨S8x1, .f32⟩
  | 125 => ⟨S8192x1, .f32⟩
  | 126 => ⟨S8192x1, .i32⟩
  | 127 => ⟨S8192, .i32⟩
  | _ => ⟨S8192x2, .i32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x8, .f32⟩
  | 9 => ⟨S8192x1, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x8, .f32⟩
  | 20 => ⟨S8192x8, .f32⟩
  | 21 => ⟨S_, .f32⟩
  | 22 => ⟨S8192, .f32⟩
  | 23 => ⟨S8192x1, .f32⟩
  | _ => ⟨S8192x2, .i32⟩

abbrev hbmTy (i : Nat) : BufTy := match i / 128 with
  | 0 => hbmTy0_0 i
  | 1 => hbmTy0_1 i
  | _ => ⟨S8192x2, .i32⟩

abbrev bufTy : (tb : Table) → Fin (tcTables nBuf tb) → BufTy
  | .hbm, ⟨i, _⟩ => hbmTy i
  | .local _ .vmem, ⟨0, _⟩ => ⟨S16x1024, .bf16⟩
  | .local _ .vmem, ⟨1, _⟩ => ⟨S16x1024, .bf16⟩
  | .local _ .vmem, ⟨2, _⟩ => ⟨S16x2048, .bf16⟩
  | .local _ .vmem, ⟨3, _⟩ => ⟨S16x2048, .bf16⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S8192x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call0_cst : Ref sig .tc := ⟨.hbm, 121, rfl⟩
abbrev main_call0_v0 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_18 : Ref sig .tc := ⟨.hbm, 128, rfl⟩
abbrev main_v95 : Ref sig .tc := ⟨.hbm, 129, rfl⟩
abbrev main_v96 : Ref sig .tc := ⟨.hbm, 130, rfl⟩
abbrev main_c_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_20 : Ref sig .tc := ⟨.hbm, 139, rfl⟩
abbrev main_v104 : Ref sig .tc := ⟨.hbm, 140, rfl⟩
abbrev main_v105 : Ref sig .tc := ⟨.hbm, 141, rfl⟩
abbrev main_c_21 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_22 : Ref sig .tc := ⟨.hbm, 149, rfl⟩
abbrev main_v112 : Ref sig .tc := ⟨.hbm, 150, rfl⟩
abbrev main_v113 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  v5
def k0_off1 (k0_t1 : Fin k0_t1_loop.trips) : Fin 2 → Nat :=
  let c0_4 : Index := 0#32
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v7 : Index := Scalar.indexCast v6
  ![0, v7.toNat]
def k0_off2 (k0_t1 : Fin k0_t1_loop.trips) : Fin 2 → Nat :=
  let c0_5 : Index := 0#32
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v10 : Index := Scalar.indexCast v6
  ![0, v10.toNat]
def k0_off3 (k0_t1 : Fin k0_t1_loop.trips) : Fin 2 → Nat :=
  let c0_10 : Index := 0#32
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v28 : Index := Scalar.indexCast v6
  ![0, v28.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  concatenates_S8192x8_S8192x8_S8192x16_d1 : Shape.Concatenates [S8192x8, S8192x8] S8192x16 1
  reducesTo_S8192x16_S_d0_1 : S8192x16.ReducesTo [0, 1] S_
  h_S_ : 0 < S_.numel
  bcast_S_S8192x16 : S_.BroadcastsInDim S8192x16 (![] : Fin 0 → Fin S8192x16.rank)
  reducesTo_S8192x16_S8192_d1 : S8192x16.ReducesTo [1] S8192
  shapeCasts_S8192x1_S1x8192 : S8192x1.ShapeCasts S1x8192
  bitsLt_bf16_f32 : FTy.bits .bf16 < FTy.bits .f32
  transposes_S8192x16_S16x8192_1_0 : S8192x16.Transposes [1, 0] S16x8192
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S16x512 : 0 < S16x512.numel
  shapeCasts_S16x512_S16x512 : S16x512.ShapeCasts S16x512
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  h_S1024x512 : 0 < S1024x512.numel
  transposes_S8x16_S16x8_1_0 : S8x16.Transposes [1, 0] S16x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  transposes_S1x8_S8x1_1_0 : S1x8.Transposes [1, 0] S8x1
  reducesTo_S8192x8_S8192_d1 : S8192x8.ReducesTo [1] S8192
  gather_S50000x8_S8192x1_S8192x8_1_0_n_n_0_1_18_wf : GatherDims.WF S50000x8 S8192x1 S8192x8 [1] [0] [] [0] [] 1 ![1, 8]
  dot_S16x1024_S16x512_S1024x512_0_0_1_1_n_n_wf : DotDims.WF S16x1024 S16x512 S1024x512 [0] [0] [1] [1] [] []
  dot_S8192x16_S16x8_S8192x8_1_0_0_1_n_n_wf : DotDims.WF S8192x16 S16x8 S8192x8 [1] [0] [0] [1] [] []
  dot_S8192x8_S8x1_S8192x1_1_0_0_1_n_n_wf : DotDims.WF S8192x8 S8x1 S8192x1 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S16x512.size a ≤ S16x2048.size a
  k0_off2_inb : ∀ k0_t1 : Fin k0_t1_loop.trips, ∀ a, (k0_off2 k0_t1) a + S1x512.size a ≤ S1x2048.size a
  k0_off3_inb : ∀ k0_t1 : Fin k0_t1_loop.trips, ∀ a, (k0_off3 k0_t1) a + S1024x512.size a ≤ S1024x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x8192.size a
  hwx0_0 : ∀ i : grid0.Coords, EltTy.bits .bf16 = 32 ∨ (Rect.block (s := S16x8192) S16x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x8192.size a
  hwx0_1 : ∀ i : grid0.Coords, EltTy.bits .bf16 = 32 ∨ (Rect.block (s := S16x8192) S16x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)

variable [Facts₀]

def gather_S50000x8_S8192x1_S8192x8_1_0_n_n_0_1_18 : GatherDims S50000x8 S8192x1 S8192x8 where
  offsetDims := [1]
  collapsedSliceDims := [0]
  operandBatchingDims := []
  startIndicesBatchingDims := []
  startIndexMap := [0]
  indexVectorDim := 1
  sliceSizes := ![1, 8]
  wf := gather_S50000x8_S8192x1_S8192x8_1_0_n_n_0_1_18_wf
def dot_S16x1024_S16x512_S1024x512_0_0_1_1_n_n : DotDims S16x1024 S16x512 S1024x512 where
  lhsContracting := [0]
  rhsContracting := [0]
  lhsNonContracting := [1]
  rhsNonContracting := [1]
  lhsBatch := []
  rhsBatch := []
  wf := dot_S16x1024_S16x512_S1024x512_0_0_1_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf

abbrev win0_0 : Pipeline.Window sig grid0 :=
  Pipeline.Window.ofSpec (Memref.whole main_v62) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2 : Shape := ⟨2, ![8192, 2]⟩
abbrev S50000x8 : Shape := ⟨2, ![50000, 8]⟩
abbrev S8x16 : Shape := ⟨2, ![8, 16]⟩
abbrev S8 : Shape := ⟨1, ![8]⟩
abbrev S1x8 : Shape := ⟨2, ![1, 8]⟩
abbrev S8192x1 : Shape := ⟨2, ![8192, 1]⟩
abbrev S8192 : Shape := ⟨1, ![8192]⟩
abbrev S_ : Shape := ⟨0, ![]⟩
abbrev S8192x8 : Shape := ⟨2, ![8192, 8]⟩
abbrev S8192x16 : Shape := ⟨2, ![8192, 16]⟩
abbrev S1x8192 : Shape := ⟨2, ![1, 8192]⟩
abbrev S8192x8192 : Shape := ⟨2, ![8192, 8192]⟩
abbrev S16x8192 : Shape := ⟨2, ![16, 8192]⟩
abbrev S16x8 : Shape := ⟨2, ![16, 8]⟩
abbrev S8x1 : Shape := ⟨2, ![8, 1]⟩

abbrev nBuf : Space → Nat
  | .hbm => 164
  | .vmem => 0
  | .smem => 0
  | _ => 0

abbrev hbmTy0_0 (i : Nat) : BufTy := match i % 128 with
  | 0 => ⟨S8192x2, .i32⟩
  | 1 => ⟨S8192x2, .i32⟩
  | 2 => ⟨S50000x8, .f32⟩
  | 3 => ⟨S50000x8, .f32⟩
  | 4 => ⟨S50000x8, .f32⟩
  | 5 => ⟨S50000x8, .f32⟩
  | 6 => ⟨S8x16, .f32⟩
  | 7 => ⟨S8, .f32⟩
  | 8 => ⟨S1x8, .f32⟩
  | 9 => ⟨S50000x8, .f32⟩
  | 10 => ⟨S50000x8, .f32⟩
  | 11 => ⟨S8192x1, .i32⟩
  | 12 => ⟨S8192, .i32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192x8, .f32⟩
  | 22 => ⟨S8192x1, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x8, .f32⟩
  | 33 => ⟨S8192x16, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S8192x16, .f32⟩
  | 41 => ⟨S8192x16, .f32⟩
  | 42 => ⟨S_, .f32⟩
  | 43 => ⟨S8192x16, .f32⟩
  | 44 => ⟨S8192x16, .f32⟩
  | 45 => ⟨S8192x1, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x8, .f32⟩
  | 56 => ⟨S8192x1, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x8, .f32⟩
  | 67 => ⟨S8192x16, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S8192x16, .f32⟩
  | 75 => ⟨S8192x16, .f32⟩
  | 76 => ⟨S_, .f32⟩
  | 77 => ⟨S8192x16, .f32⟩
  | 78 => ⟨S8192x16, .f32⟩
  | 79 => ⟨S8192x16, .f32⟩
  | 80 => ⟨S_, .f32⟩
  | 81 => ⟨S8192, .f32⟩
  | 82 => ⟨S8192x1, .f32⟩
  | 83 => ⟨S8192x16, .f32⟩
  | 84 => ⟨S_, .f32⟩
  | 85 => ⟨S8192, .f32⟩
  | 86 => ⟨S1x8192, .f32⟩
  | 87 => ⟨S8192x8192, .f32⟩
  | 88 => ⟨S8192x8192, .f32⟩
  | 89 => ⟨S8192x8192, .f32⟩
  | 90 => ⟨S16x8192, .f32⟩
  | 91 => ⟨S8192x8192, .f32⟩
  | 92 => ⟨S_, .f32⟩
  | 93 => ⟨S8192x8192, .f32⟩
  | 94 => ⟨S8192x8192, .f32⟩
  | 95 => ⟨S8192x8192, .f32⟩
  | 96 => ⟨S_, .f32⟩
  | 97 => ⟨S8192x8192, .f32⟩
  | 98 => ⟨S8192x8192, .f32⟩
  | 99 => ⟨S8192x8192, .f32⟩
  | 100 => ⟨S8192x8192, .f32⟩
  | 101 => ⟨S_, .f32⟩
  | 102 => ⟨S8192x8192, .f32⟩
  | 103 => ⟨S8192x8192, .f32⟩
  | 104 => ⟨S8192x8192, .f32⟩
  | 105 => ⟨S8192x1, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x8, .f32⟩
  | 116 => ⟨S8192x1, .i32⟩
  | 117 => ⟨S8192, .i32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x8, .f32⟩
  | 127 => ⟨S8192x16, .f32⟩
  | _ => ⟨S8192x2, .i32⟩

abbrev hbmTy0_1 (i : Nat) : BufTy := match i % 128 with
  | 0 => ⟨S16x8, .f32⟩
  | 1 => ⟨S8192x8, .f32⟩
  | 2 => ⟨S1x8, .f32⟩
  | 3 => ⟨S8192x8, .f32⟩
  | 4 => ⟨S8192x8, .f32⟩
  | 5 => ⟨S_, .f32⟩
  | 6 => ⟨S8192x8, .f32⟩
  | 7 => ⟨S8192x8, .f32⟩
  | 8 => ⟨S8x1, .f32⟩
  | 9 => ⟨S8192x1, .f32⟩
  | 10 => ⟨S8192x1, .i32⟩
  | 11 => ⟨S8192, .i32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x8, .f32⟩
  | 21 => ⟨S8192x1, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x8, .f32⟩
  | 32 => ⟨S8192x8, .f32⟩
  | 33 => ⟨S_, .f32⟩
  | 34 => ⟨S8192, .f32⟩
  | 35 => ⟨S8192x1, .f32⟩
  | _ => ⟨S8192x2, .i32⟩

abbrev hbmTy (i : Nat) : BufTy := match i / 128 with
  | 0 => hbmTy0_0 i
  | 1 => hbmTy0_1 i
  | _ => ⟨S8192x2, .i32⟩

abbrev bufTy : (tb : Table) → Fin (tcTables nBuf tb) → BufTy
  | .hbm, ⟨i, _⟩ => hbmTy i
  | _, _ => ⟨S8192x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_19 : Ref sig .tc := ⟨.hbm, 118, rfl⟩
abbrev main_v86 : Ref sig .tc := ⟨.hbm, 119, rfl⟩
abbrev main_v87 : Ref sig .tc := ⟨.hbm, 120, rfl⟩
abbrev main_c_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call0_cst : Ref sig .tc := ⟨.hbm, 133, rfl⟩
abbrev main_call0_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_21 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_23 : Ref sig .tc := ⟨.hbm, 151, rfl⟩
abbrev main_v113 : Ref sig .tc := ⟨.hbm, 152, rfl⟩
abbrev main_v114 : Ref sig .tc := ⟨.hbm, 153, rfl⟩
abbrev main_c_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_25 : Ref sig .tc := ⟨.hbm, 161, rfl⟩
abbrev main_v121 : Ref sig .tc := ⟨.hbm, 162, rfl⟩
abbrev main_v122 : Ref sig .tc := ⟨.hbm, 163, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  concatenates_S8192x8_S8192x8_S8192x16_d1 : Shape.Concatenates [S8192x8, S8192x8] S8192x16 1
  reducesTo_S8192x16_S_d0_1 : S8192x16.ReducesTo [0, 1] S_
  h_S_ : 0 < S_.numel
  bcast_S_S8192x16 : S_.BroadcastsInDim S8192x16 (![] : Fin 0 → Fin S8192x16.rank)
  reducesTo_S8192x16_S8192_d1 : S8192x16.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x16_S16x8192_1_0 : S8192x16.Transposes [1, 0] S16x8192
  bcast_S_S8192x8192 : S_.BroadcastsInDim S8192x8192 (![] : Fin 0 → Fin S8192x8192.rank)
  transposes_S8x16_S16x8_1_0 : S8x16.Transposes [1, 0] S16x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  transposes_S1x8_S8x1_1_0 : S1x8.Transposes [1, 0] S8x1
  reducesTo_S8192x8_S8192_d1 : S8192x8.ReducesTo [1] S8192
  gather_S50000x8_S8192x1_S8192x8_1_0_n_n_0_1_18_wf : GatherDims.WF S50000x8 S8192x1 S8192x8 [1] [0] [] [0] [] 1 ![1, 8]
  dot_S8192x16_S16x8192_S8192x8192_1_0_0_1_n_n_wf : DotDims.WF S8192x16 S16x8192 S8192x8192 [1] [0] [0] [1] [] []
  dot_S8192x16_S16x8_S8192x8_1_0_0_1_n_n_wf : DotDims.WF S8192x16 S16x8 S8192x8 [1] [0] [0] [1] [] []
  dot_S8192x8_S8x1_S8192x1_1_0_0_1_n_n_wf : DotDims.WF S8192x8 S8x1 S8192x1 [1] [0] [0] [1] [] []

variable [Facts₀]

def gather_S50000x8_S8192x1_S8192x8_1_0_n_n_0_1_18 : GatherDims S50000x8 S8192x1 S8192x8 where
  offsetDims := [1]
  collapsedSliceDims := [0]
  operandBatchingDims := []
  startIndicesBatchingDims := []
  startIndexMap := [0]
  indexVectorDim := 1
  sliceSizes := ![1, 8]
  wf := gather_S50000x8_S8192x1_S8192x8_1_0_n_n_0_1_18_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf

class Facts : Prop extends Facts₀ where

variable [Facts]
-- ==== Proof.Spec.lean ====
/-
  The radial kernel's one entry, as a function of the two squared norms and the inner product, on the extended reals:
  exp(−0.1·√max(a + b − 2s, 0)), the operations in the order the kernel's body applies them.
-/
import Idealize.ShloMosaic.PureOps.Ideal
import Idealize.ShloMosaic.Lib.ValueIdx

noncomputable section

namespace Cert.Rbf

open Idealize.ShloMosaic

/-- `exp(−0.1·√max(a + b − 2s, 0))`: `a`, `b` the squared norms of a row feature vector and of a column feature vector, `s` their
    inner product; the negation is written as the body writes it, `0 − d`. -/
def kform (a b s : Ideal .f32) : Ideal .f32 :=
  FloatOps.exp (FloatOps.mulf (FloatOps.subf (FloatOps.ofBits .f32 0x00000000#32)
    (FloatOps.sqrt (FloatOps.maximumf (FloatOps.subf (FloatOps.addf a b) (FloatOps.mulf (FloatOps.ofBits .f32 0x40000000#32) s))
      (FloatOps.ofBits .f32 0x00000000#32)))) (FloatOps.ofBits .f32 0x3DCCCCCD#32))

end Cert.Rbf

end
-- ==== Proof.KPayload.lean ====
/-
  The body's one payload read at an index: entry (p, q) of a trip's 1024 × 512 tile is the radial kernel's entry of the
  row block's norm at p, the column chunk's norm at q and the inner product of the two 16-long feature columns.
-/
import proofs.«152576_j2911987826854_2_alg».proof.Proof.Gen.KernelIdeal.Skeleton
import proofs.«152576_j2911987826854_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Rbf

open Idealize.ShloMosaic Idealize.ShloMosaic.ValueIdx Cert.KernelIdeal Cert.KernelIdeal.Gen
open scoped BigOperators

/-! The operand indices of the body's matrix product (both operands contracted along their FIRST axis): at output
    index (p, q) and contraction index k the left operand is read at (k, p), the right at (k, q). -/
theorem crossL_0 (j : S1024x512.Idx) (r : dot_S16x1024_S16x512_S1024x512_0_0_1_1_n_n.contr.Idx) :
    (dot_S16x1024_S16x512_S1024x512_0_0_1_1_n_n.lhsIdx j r 0).val = (r ⟨0, by decide⟩).val :=
  dot_S16x1024_S16x512_S1024x512_0_0_1_1_n_n.lhsIdx_val_of_single rfl j r
theorem crossL_1 (j : S1024x512.Idx) (r : dot_S16x1024_S16x512_S1024x512_0_0_1_1_n_n.contr.Idx) :
    (dot_S16x1024_S16x512_S1024x512_0_0_1_1_n_n.lhsIdx j r 1).val = (j 0).val := by
  unfold DotDims.lhsIdx
  rw [dif_neg (show ¬(1 : Fin S16x1024.rank) ∈ dot_S16x1024_S16x512_S1024x512_0_0_1_1_n_n.lhsBatch by decide), dif_pos (show (1 : Fin S16x1024.rank) ∈ dot_S16x1024_S16x512_S1024x512_0_0_1_1_n_n.lhsNonContracting by decide)]
  rfl
theorem crossR_0 (j : S1024x512.Idx) (r : dot_S16x1024_S16x512_S1024x512_0_0_1_1_n_n.contr.Idx) :
    (dot_S16x1024_S16x512_S1024x512_0_0_1_1_n_n.rhsIdx j r 0).val = (r ⟨0, by decide⟩).val :=
  dot_S16x1024_S16x512_S1024x512_0_0_1_1_n_n.rhsIdx_val_of_single rfl j r
theorem crossR_1 (j : S1024x512.Idx) (r : dot_S16x1024_S16x512_S1024x512_0_0_1_1_n_n.contr.Idx) :
    (dot_S16x1024_S16x512_S1024x512_0_0_1_1_n_n.rhsIdx j r 1).val = (j 1).val := by
  unfold DotDims.rhsIdx
  rw [dif_neg (show ¬(1 : Fin S16x512.rank) ∈ dot_S16x1024_S16x512_S1024x512_0_0_1_1_n_n.rhsBatch by decide), dif_pos (show (1 : Fin S16x512.rank) ∈ dot_S16x1024_S16x512_S1024x512_0_0_1_1_n_n.rhsNonContracting by decide)]
  rfl

/-- The matrix unit's product of the row block (features × 1024 points) and a column chunk (features × 512 points), both
    contracted along their first axis, into a zero accumulator: entry (p, q) is the inner product of the two feature
    columns. -/
theorem cross_apply (a : FVec Ideal S16x1024 .bf16) (b : FVec Ideal S16x512 .bf16) (p : Fin 1024) (q : Fin 512) :
    matmul dot_S16x1024_S16x512_S1024x512_0_0_1_1_n_n none a b (constant S1024x512 .f32 0x00000000#32) (ix2 p q)
      = ∑ k : Fin 16, a (ix2 k p) * b (ix2 k q) := by
  refine (Ideal.matmul_constant_zero_apply dot_S16x1024_S16x512_S1024x512_0_0_1_1_n_n none a b (ix2 p q)).trans ?_
  rw [← Equiv.sum_comp (ValueIdx.contrEquiv1 dot_S16x1024_S16x512_S1024x512_0_0_1_1_n_n 16 rfl rfl).symm]
  refine Finset.sum_congr rfl fun k _ => ?_
  have hk := ValueIdx.contrEquiv1_symm_val dot_S16x1024_S16x512_S1024x512_0_0_1_1_n_n 16 rfl rfl k
  have el : dot_S16x1024_S16x512_S1024x512_0_0_1_1_n_n.lhsIdx (ix2 p q) ((ValueIdx.contrEquiv1 dot_S16x1024_S16x512_S1024x512_0_0_1_1_n_n 16 rfl rfl).symm k) = ix2 k p :=
    funext fun d => Fin.ext (by
      match d with
      | ⟨0, _⟩ => exact (crossL_0 _ _).trans hk
      | ⟨1, _⟩ => exact crossL_1 _ _)
  have er : dot_S16x1024_S16x512_S1024x512_0_0_1_1_n_n.rhsIdx (ix2 p q) ((ValueIdx.contrEquiv1 dot_S16x1024_S16x512_S1024x512_0_0_1_1_n_n 16 rfl rfl).symm k) = ix2 k q :=
    funext fun d => Fin.ext (by
      match d with
      | ⟨0, _⟩ => exact (crossR_0 _ _).trans hk
      | ⟨1, _⟩ => exact crossR_1 _ _)
  rw [el, er]

/-- A column of 1024 norms spread along the 512 lanes reads at (p, q) its entry p. -/
theorem colSpread_apply (x : FVec Ideal S1024x1 .f32) (p : Fin 1024) (q : Fin 512) :
    broadcastTo S1024x512 x broadcasts_S1024x1_S1024x512 (ix2 p q) = x (ix2 p (0 : Fin 1)) :=
  broadcastTo_apply x broadcasts_S1024x1_S1024x512 (ix2 p q) (ix2 p (0 : Fin 1)) (fun a => by
    match a with
    | ⟨0, _⟩ => show p.val = if (1024 : Nat) = 1 then 0 else p.val; rw [if_neg (by decide)]
    | ⟨1, _⟩ => show (0 : Nat) = if (1 : Nat) = 1 then 0 else q.val; rw [if_pos rfl])

/-- A row of 512 norms spread down the 1024 sublanes reads at (p, q) its entry q. -/
theorem rowSpread_apply (x : FVec Ideal S1x512 .f32) (p : Fin 1024) (q : Fin 512) :
    broadcastTo S1024x512 x broadcasts_S1x512_S1024x512 (ix2 p q) = x (ix2 (0 : Fin 1) q) :=
  broadcastTo_apply x broadcasts_S1x512_S1024x512 (ix2 p q) (ix2 (0 : Fin 1) q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- Entry (p, q) of a trip's tile: the radial kernel's entry of the row block's norm at p, the column chunk's norm at q
    and the inner product of feature column p of the row block with feature column q of the chunk. -/
theorem pay1_apply (v0 : Vec Ideal S16x1024 .bf16) (v2 : Vec Ideal S1024x1 .f32) (v8 : Vec Ideal S16x512 .bf16) (v11 : Vec Ideal S1x512 .f32)
    (p : Fin 1024) (q : Fin 512) :
    k0_pay1 (F := Ideal) v0 v2 v8 v11 (ix2 p q)
      = kform (v2 (ix2 p (0 : Fin 1))) (v11 (ix2 (0 : Fin 1) q)) (∑ k : Fin 16, v0 (ix2 k p) * v8 (ix2 k q)) := by
  have h : k0_pay1 (F := Ideal) v0 v2 v8 v11 (ix2 p q)
      = kform (broadcastTo S1024x512 (shapeCast S1024x1 (v2 : FVec Ideal S1024x1 .f32) shapeCasts_S1024x1_S1024x1) broadcasts_S1024x1_S1024x512 (ix2 p q))
          (broadcastTo S1024x512 (shapeCast S1x512 (v11 : FVec Ideal S1x512 .f32) shapeCasts_S1x512_S1x512) broadcasts_S1x512_S1024x512 (ix2 p q))
          (matmul dot_S16x1024_S16x512_S1024x512_0_0_1_1_n_n none (shapeCast S16x1024 (v0 : FVec Ideal S16x1024 .bf16) shapeCasts_S16x1024_S16x1024)
            (shapeCast S16x512 (v8 : FVec Ideal S16x512 .bf16) shapeCasts_S16x512_S16x512) (constant S1024x512 .f32 0x00000000#32) (ix2 p q)) := rfl
  rw [h, shapeCast_self, shapeCast_self, shapeCast_self, shapeCast_self, colSpread_apply, rowSpread_apply, cross_apply]

end Cert.Rbf

end
-- ==== Proof.KBlock.lean ====
/-
  What one grid point leaves in the output's staging buffer, read at an index: the four trips' tiles side by side.
-/
import proofs.«152576_j2911987826854_2_alg».proof.Proof.Gen.KernelIdeal.Frame
import proofs.«152576_j2911987826854_2_alg».proof.Proof.KPayload

noncomputable section

namespace Cert.Rbf

open Idealize.ShloMosaic Idealize.ShloMosaic.ValueIdx Cert.KernelIdeal Cert.KernelIdeal.Gen
open scoped BigOperators

/-! ## The pieces the body's stores leave, for any float instance -/

section Pieces

variable {F : FTy → Type} [FloatOps F]

/-- The body's pieces are those of its four trips, over the row block's feature columns and norms read whole:
    a load through the whole-shape rectangle at zero offsets reads the contents. -/
private theorem runL_eq (c : Dev nD) (i : grid0.Coords) (arg2 : Memref sig .tc .vmem S16x1024 .bf16) (harg2 : arg2.IsWhole) (arg3 : Memref sig .tc .vmem S16x2048 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x2048 .f32) (harg6 : arg6.IsWhole)
    (x0 : Vec F S16x1024 .bf16) (x1 : Vec F S16x2048 .bf16) (x2 : Vec F S1024x1 .f32) (x3 : Vec F S1x2048 .f32) :
    (kernelRun0_A (F := F) c i arg2 harg2 arg3 harg3 arg4 harg4 arg5 harg5 arg6 harg6 x0 x1 x2 x3).1
      = pb_k0_t1 (F := F) Variants.none c none i arg2 harg2 arg3 harg3 arg4 harg4 arg5 harg5 arg6 harg6 x0 x2 (harg3.unread x1) (harg5.unread x3) 4 := by
  unfold kernelRun0_A
  dsimp only
  rw [View.readAt_eq_ld, View.readAt_eq_ld, harg2.read_unread, harg4.read_unread,
    View.ld_unit_zero (S := S16x1024) (by decide), View.ld_unit_zero (S := S1024x1) (by decide)]
  rfl

/-- Trip `k` stores ONE piece: through the 1024 × 512 rectangle at column offset 512·k of the output block, the payload
    of the row block's columns and norms and of the column block's 512-column chunk at the same offset (its feature
    columns and its norms). -/
private theorem tripL_eq (𝒱 : Variants) (c : Dev nD) (bd : Option 𝒱.V) (i : grid0.Coords) (arg2 : Memref sig .tc .vmem S16x1024 .bf16) (harg2 : arg2.IsWhole) (arg3 : Memref sig .tc .vmem S16x2048 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x2048 .f32) (harg6 : arg6.IsWhole)
    (v0 : Vec F S16x1024 .bf16) (v2 : Vec F S1024x1 .f32) (X_arg3 : BufTy.Contents (Elt F) arg3.view.ty) (X_arg5 : BufTy.Contents (Elt F) arg5.view.ty) (k : Fin k0_t1_loop.trips) :
    tripL_k0_t1 (F := F) 𝒱 c bd i arg2 harg2 arg3 harg3 arg4 harg4 arg5 harg5 arg6 harg6 v0 v2 X_arg3 X_arg5 k
      = [⟨Rect.unit (s := S1024x2048) (k0_off3 k) S1024x512.size (k0_off3_inb k),
          k0_pay1 v0 v2
            (View.ld (arg3.view.read (Elt F) X_arg3) (Rect.unit (s := S16x2048) (k0_off1 k) S16x512.size (k0_off1_inb k)))
            (View.ld (arg5.view.read (Elt F) X_arg5) (Rect.unit (s := S1x2048) (k0_off2 k) S1x512.size (k0_off2_inb k)))⟩] := by
  unfold tripL_k0_t1 trip_k0_t1
  rfl

end Pieces

/-! ## Every piece is a tile of one function of the block's index -/

/-- The loop makes four trips. -/
private theorem trips_eq : k0_t1_loop.trips = 4 := by decide

/-- The function of the output block's index (p, q) whose 1024 × 512 tiles the four trips store: the radial kernel's
    entry of the row norm at p, the column norm at q and the inner product of feature column p with feature column q. -/
private def Gout (x0 : Vec Ideal S16x1024 .bf16) (x1 : Vec Ideal S16x2048 .bf16) (x2 : Vec Ideal S1024x1 .f32) (x3 : Vec Ideal S1x2048 .f32) :
    S1024x2048.Idx → Ideal .f32 :=
  fun y => kform (x2 (ix2 (n0 := 1024) (y 0) (0 : Fin 1))) (x3 (ix2 (n1 := 2048) (0 : Fin 1) (y 1)))
    (∑ k : Fin 16, x0 (ix2 (n1 := 1024) k (y 0)) * x1 (ix2 (n1 := 2048) k (y 1)))

private theorem Gout_apply (x0 : Vec Ideal S16x1024 .bf16) (x1 : Vec Ideal S16x2048 .bf16) (x2 : Vec Ideal S1024x1 .f32) (x3 : Vec Ideal S1x2048 .f32)
    (p : Fin 1024) (q : Fin 2048) :
    Gout x0 x1 x2 x3 (ix2 p q) = kform (x2 (ix2 p (0 : Fin 1))) (x3 (ix2 (0 : Fin 1) q)) (∑ k : Fin 16, x0 (ix2 k p) * x1 (ix2 k q)) := rfl

/-- Entry (a, b) of trip `k`'s rectangle of the output block is entry (a, 512·k + b) of the block: the offsets are
    (0, 512·k) and the strides 1. -/
private theorem emb3 (k : Fin k0_t1_loop.trips) (a : Fin 1024) (b : Fin 512) (h : 512 * k.val + b.val < 2048) :
    (Rect.unit (s := S1024x2048) (k0_off3 k) S1024x512.size (k0_off3_inb k)).emb (ix2 a b)
      = ix2 a (⟨512 * k.val + b.val, h⟩ : Fin 2048) := by
  funext d
  match d with
  | ⟨0, _⟩ => exact Fin.ext (by show (k0_off3 k) 0 + 1 * a.val = a.val; rw [k0_off3_eq]; simp)
  | ⟨1, _⟩ => exact Fin.ext (by show (k0_off3 k) 1 + 1 * b.val = 512 * k.val + b.val; rw [k0_off3_eq]; simp)

/-- The same for the chunk of the column block's feature columns that trip `k` loads, -/
private theorem idx1 (k : Fin k0_t1_loop.trips) (a : Fin 16) (b : Fin 512) (h : 512 * k.val + b.val < 2048) :
    (Rect.unit (s := S16x2048) (k0_off1 k) S16x512.size (k0_off1_inb k)).idx (ix2 a b)
      = ix2 a (⟨512 * k.val + b.val, h⟩ : Fin 2048) := by
  funext d
  match d with
  | ⟨0, _⟩ => exact Fin.ext (by show (k0_off1 k) 0 + 1 * a.val = a.val; rw [k0_off1_eq]; simp)
  | ⟨1, _⟩ => exact Fin.ext (by show (k0_off1 k) 1 + 1 * b.val = 512 * k.val + b.val; rw [k0_off1_eq]; simp)

/-- and for the chunk of its norms. -/
private theorem idx2 (k : Fin k0_t1_loop.trips) (a : Fin 1) (b : Fin 512) (h : 512 * k.val + b.val < 2048) :
    (Rect.unit (s := S1x2048) (k0_off2 k) S1x512.size (k0_off2_inb k)).idx (ix2 a b)
      = ix2 a (⟨512 * k.val + b.val, h⟩ : Fin 2048) := by
  funext d
  match d with
  | ⟨0, _⟩ => exact Fin.ext (by show (k0_off2 k) 0 + 1 * a.val = a.val; rw [k0_off2_eq]; simp)
  | ⟨1, _⟩ => exact Fin.ext (by show (k0_off2 k) 1 + 1 * b.val = 512 * k.val + b.val; rw [k0_off2_eq]; simp)

/-- Trip `k`'s payload at (a, b) is the function at the entry of the block its rectangle puts (a, b) on: the chunk's
    column b is the column block's column 512·k + b, in the feature columns and in the norms alike. -/
private theorem piece_apply (x0 : Vec Ideal S16x1024 .bf16) (x1 : Vec Ideal S16x2048 .bf16) (x2 : Vec Ideal S1024x1 .f32) (x3 : Vec Ideal S1x2048 .f32)
    (k : Fin k0_t1_loop.trips) (a : Fin 1024) (b : Fin 512) :
    k0_pay1 (F := Ideal) x0 x2
        (View.ld x1 (Rect.unit (s := S16x2048) (k0_off1 k) S16x512.size (k0_off1_inb k)))
        (View.ld x3 (Rect.unit (s := S1x2048) (k0_off2 k) S1x512.size (k0_off2_inb k))) (ix2 a b)
      = Gout x0 x1 x2 x3 ((Rect.unit (s := S1024x2048) (k0_off3 k) S1024x512.size (k0_off3_inb k)).emb (ix2 a b)) := by
  have hk : k.val < 4 := trips_eq ▸ k.isLt
  have hb : 512 * k.val + b.val < 2048 := by have := b.isLt; omega
  rw [pay1_apply, emb3 k a b hb, Gout_apply]
  show kform _ (x3 ((Rect.unit (s := S1x2048) (k0_off2 k) S1x512.size (k0_off2_inb k)).idx (ix2 (0 : Fin 1) b)))
      (∑ kk : Fin 16, x0 (ix2 kk a) * x1 ((Rect.unit (s := S16x2048) (k0_off1 k) S16x512.size (k0_off1_inb k)).idx (ix2 kk b))) = _
  rw [idx2 k 0 b hb]
  simp only [idx1 k _ b hb]

/-- Every piece of the first `n` trips (n ≤ 4) is the function's tile on its rectangle: by induction on `n`, the
    pieces of n + 1 trips being trip n's one piece in front of those of n trips. -/
private theorem pb_agrees (c : Dev nD) (i : grid0.Coords) (arg2 : Memref sig .tc .vmem S16x1024 .bf16) (harg2 : arg2.IsWhole) (arg3 : Memref sig .tc .vmem S16x2048 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x2048 .f32) (harg6 : arg6.IsWhole)
    (x0 : Vec Ideal S16x1024 .bf16) (x1 : Vec Ideal S16x2048 .bf16) (x2 : Vec Ideal S1024x1 .f32) (x3 : Vec Ideal S1x2048 .f32) :
    ∀ n : ℕ, n ≤ 4 → ∀ pc ∈ pb_k0_t1 (F := Ideal) Variants.none c none i arg2 harg2 arg3 harg3 arg4 harg4 arg5 harg5 arg6 harg6 x0 x2 (harg3.unread x1) (harg5.unread x3) n,
      ∀ x : pc.1.shape.Idx, pc.2 x = Gout x0 x1 x2 x3 (pc.1.emb x)
  | 0, _ => by
    intro pc hpc
    rw [pb_k0_t1.eq_1] at hpc
    exact absurd hpc List.not_mem_nil
  | n + 1, hn => by
    intro pc hpc x
    have h : n < k0_t1_loop.trips := by rw [trips_eq]; omega
    have e := pb_k0_t1_succ (F := Ideal) Variants.none c none i arg2 harg2 arg3 harg3 arg4 harg4 arg5 harg5 arg6 harg6 x0 x2 (harg3.unread x1) (harg5.unread x3) ⟨n, h⟩
    rw [show n + 1 = (⟨n, h⟩ : Fin k0_t1_loop.trips).val + 1 from rfl, e, tripL_eq, List.mem_append] at hpc
    rcases hpc with hpc | hpc
    · rw [List.mem_singleton] at hpc
      subst hpc
      obtain ⟨a, b, rfl⟩ : ∃ (a : Fin 1024) (b : Fin 512), x = ix2 a b := ⟨x 0, x 1, eq_ix2 x⟩
      rw [harg3.read_unread, harg5.read_unread]
      exact piece_apply x0 x1 x2 x3 ⟨n, h⟩ a b
    · exact pb_agrees c i arg2 harg2 arg3 harg3 arg4 harg4 arg5 harg5 arg6 harg6 x0 x1 x2 x3 n (by omega) pc hpc x

/-! ## The block read at an index -/

theorem out0_A_4_apply (c : Dev nD) (i : grid0.Coords) (arg2 : Memref sig .tc .vmem S16x1024 .bf16) (harg2 : arg2.IsWhole) (arg3 : Memref sig .tc .vmem S16x2048 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x2048 .f32) (harg6 : arg6.IsWhole)
    (x0 : Vec Ideal S16x1024 .bf16) (x1 : Vec Ideal S16x2048 .bf16) (x2 : Vec Ideal S1024x1 .f32) (x3 : Vec Ideal S1x2048 .f32)
    (p : Fin 1024) (q : Fin 2048) :
    out0_A_4 (F := Ideal) c i arg2 harg2 arg3 harg3 arg4 harg4 arg5 harg5 arg6 harg6 x0 x1 x2 x3 (ix2 p q)
      = kform (x2 (ix2 p (0 : Fin 1))) (x3 (ix2 (0 : Fin 1) q)) (∑ k : Fin 16, x0 (ix2 k p) * x1 (ix2 k q)) := by
  -- the pieces cover the block and each is a tile of the one function, so the block reads that function at (p, q)
  unfold out0_A_4
  refine (View.read_writes_apply_of_pieces (Val := Elt Ideal) VO0_4 VO0_4.junk (Gout x0 x1 x2 x3) _ (fun pc hpc x => ?_) (ix2 p q)
    (cover0_A_4 (F := Ideal) c i arg2 harg2 arg3 harg3 arg4 harg4 arg5 harg5 arg6 harg6 x0 x1 x2 x3 (ix2 p q))).trans
    (Gout_apply x0 x1 x2 x3 p q)
  rw [runL_eq] at hpc
  exact pb_agrees c i arg2 harg2 arg3 harg3 arg4 harg4 arg5 harg5 arg6 harg6 x0 x1 x2 x3 4 le_rfl pc hpc x

end Cert.Rbf

end
-- ==== Proof.KEntry.lean ====
/-
  The four arrays the region reads, as it finds them, under names that say what they hold: the transposed row and
  column features and the two vectors of squared norms.
-/
import proofs.«152576_j2911987826854_2_alg».proof.Proof.Gen.KernelIdeal.Frame.Runs
import Idealize.ShloMosaic.PureOps.Ideal

noncomputable section

namespace Cert.Rbf

open Idealize.ShloMosaic Idealize.ShloMosaic.TcCoe Cert.KernelIdeal Cert.KernelIdeal.Gen

variable (m : (ℓ : Loc nD τ sig) → Buf (Elt Ideal) ℓ) (c : Dev nD)

/-- The row features, transposed: entry (k, i) is feature k of row point i. -/
abbrev fyT : S16x8192.Idx → EReal := V m c main_v62
/-- The column features, transposed: entry (k, j) is feature k of column point j. -/
abbrev fxT : S16x8192.Idx → EReal := V m c main_v64
/-- The row points' squared norms, as a column. -/
abbrev nrow : S8192x1.Idx → EReal := V m c main_v56
/-- The column points' squared norms, as a row. -/
abbrev ncol : S1x8192.Idx → EReal := V m c main_v60

end Cert.Rbf

end
-- ==== Proof.KArray.lean ====
/-
  From the grid points' blocks to the whole output array: entry (i, j) after the region.
-/
import proofs.«152576_j2911987826854_2_alg».proof.Proof.Gen.KernelIdeal.Frame
import proofs.«152576_j2911987826854_2_alg».proof.Proof.KBlock
import proofs.«152576_j2911987826854_2_alg».proof.Proof.KEntry
import Idealize.ShloMosaic.Lib.Pipeline.Value

noncomputable section

namespace Cert.Rbf

open Idealize.ShloMosaic Idealize.ShloMosaic.ValueIdx Cert.KernelIdeal Cert.KernelIdeal.Gen
open scoped BigOperators

/-- The whole output array as one function of the four arrays the region reads: entry (r, s) is the radial
    kernel of row point r and column point s. -/
def G (m : (ℓ : Loc nD τ sig) → Buf (Elt Ideal) ℓ) (c : Dev nD) : S8192x8192.Idx → EReal := fun y =>
  kform (nrow m c (ix2 (y 0) (0 : Fin 1))) (ncol m c (ix2 (0 : Fin 1) (y 1)))
    (∑ k : Fin 16, fyT m c (ix2 k (y 0)) * fxT m c (ix2 k (y 1)))

/-- The index maps, decided over the 8 × 4 grid: the row-side windows move with the output's row block, the
    column-side windows with its column block, the remaining axes stay at block 0, and the output's block
    indices stay in their ranges. -/
theorem idx_facts : ∀ t : Fin cfg0.N,
    win0_0.index t (0 : Fin 2) = 0 ∧ win0_0.index t (1 : Fin 2) = win0_4.index t (0 : Fin 2)
    ∧ win0_1.index t (0 : Fin 2) = 0 ∧ win0_1.index t (1 : Fin 2) = win0_4.index t (1 : Fin 2)
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every block of the output is some point's. -/
theorem idx_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-- The whole-array function at an index given by its coordinates. -/
theorem G_apply (m : (ℓ : Loc nD τ sig) → Buf (Elt Ideal) ℓ) (c : Dev nD) (i j : Fin 8192) :
    G m c (ix2 i j) = kform (nrow m c (ix2 i (0 : Fin 1))) (ncol m c (ix2 (0 : Fin 1) j))
      (∑ k : Fin 16, fyT m c (ix2 k i) * fxT m c (ix2 k j)) := rfl

/-- The radial kernel's entry respects equal arguments. -/
theorem kform_congr {a a' b b' s s' : EReal} (ha : a = a') (hb : b = b') (hs : s = s') :
    kform a b s = kform a' b' s' := by rw [ha, hb, hs]

/-- The row-feature block at point t is columns 1024·(row block) + … of the transposed row features. -/
theorem fyT_blk (m : (ℓ : Loc nD τ sig) → Buf (Elt Ideal) ℓ) (c : Dev nD) (t : Fin cfg0.N) (k : Fin 16) (p : Fin 1024) (i : Fin 8192)
    (hi : i.val = win0_4.index t (0 : Fin 2) * 1024 + p.val) :
    (iblk m c 0 t : Vec Ideal S16x1024 .bf16) (ix2 k p) = fyT m c (ix2 k i) := by
  obtain ⟨e0, e1, e2, e3, e4, e5, e6, e7, e8, e9⟩ := idx_facts t
  show V m c main_v62 (((cfg0.win 0).blk t).view.emb (ix2 k p)) = V m c main_v62 (ix2 k i)
  congr 1
  funext a; apply Fin.ext
  match a with
  | ⟨0, _⟩ => show win0_0.index t (0 : Fin 2) * 16 + 1 * k.val = k.val; omega
  | ⟨1, _⟩ => show win0_0.index t (1 : Fin 2) * 1024 + 1 * p.val = i.val; omega

/-- The column-feature block at point t is columns 2048·(column block) + … of the transposed column features. -/
theorem fxT_blk (m : (ℓ : Loc nD τ sig) → Buf (Elt Ideal) ℓ) (c : Dev nD) (t : Fin cfg0.N) (k : Fin 16) (q : Fin 2048) (j : Fin 8192)
    (hj : j.val = win0_4.index t (1 : Fin 2) * 2048 + q.val) :
    (iblk m c 1 t : Vec Ideal S16x2048 .bf16) (ix2 k q) = fxT m c (ix2 k j) := by
  obtain ⟨e0, e1, e2, e3, e4, e5, e6, e7, e8, e9⟩ := idx_facts t
  show V m c main_v64 (((cfg0.win 1).blk t).view.emb (ix2 k q)) = V m c main_v64 (ix2 k j)
  congr 1
  funext a; apply Fin.ext
  match a with
  | ⟨0, _⟩ => show win0_1.index t (0 : Fin 2) * 16 + 1 * k.val = k.val; omega
  | ⟨1, _⟩ => show win0_1.index t (1 : Fin 2) * 2048 + 1 * q.val = j.val; omega

/-- The row-norm block at point t is rows 1024·(row block) + … of the column of row norms. -/
theorem nrow_blk (m : (ℓ : Loc nD τ sig) → Buf (Elt Ideal) ℓ) (c : Dev nD) (t : Fin cfg0.N) (p : Fin 1024) (i : Fin 8192)
    (hi : i.val = win0_4.index t (0 : Fin 2) * 1024 + p.val) :
    (iblk m c 2 t : Vec Ideal S1024x1 .f32) (ix2 p (0 : Fin 1)) = nrow m c (ix2 i (0 : Fin 1)) := by
  obtain ⟨e0, e1, e2, e3, e4, e5, e6, e7, e8, e9⟩ := idx_facts t
  show V m c main_v56 (((cfg0.win 2).blk t).view.emb (ix2 p (0 : Fin 1))) = V m c main_v56 (ix2 i (0 : Fin 1))
  congr 1
  funext a; apply Fin.ext
  match a with
  | ⟨0, _⟩ => show win0_2.index t (0 : Fin 2) * 1024 + 1 * p.val = i.val; omega
  | ⟨1, _⟩ => show win0_2.index t (1 : Fin 2) * 1 + 1 * 0 = 0; omega

/-- The column-norm block at point t is columns 2048·(column block) + … of the row of column norms. -/
theorem ncol_blk (m : (ℓ : Loc nD τ sig) → Buf (Elt Ideal) ℓ) (c : Dev nD) (t : Fin cfg0.N) (q : Fin 2048) (j : Fin 8192)
    (hj : j.val = win0_4.index t (1 : Fin 2) * 2048 + q.val) :
    (iblk m c 3 t : Vec Ideal S1x2048 .f32) (ix2 (0 : Fin 1) q) = ncol m c (ix2 (0 : Fin 1) j) := by
  obtain ⟨e0, e1, e2, e3, e4, e5, e6, e7, e8, e9⟩ := idx_facts t
  show V m c main_v60 (((cfg0.win 3).blk t).view.emb (ix2 (0 : Fin 1) q)) = V m c main_v60 (ix2 (0 : Fin 1) j)
  congr 1
  funext a; apply Fin.ext
  match a with
  | ⟨0, _⟩ => show win0_3.index t (0 : Fin 2) * 1 + 1 * 0 = 0; omega
  | ⟨1, _⟩ => show win0_3.index t (1 : Fin 2) * 2048 + 1 * q.val = j.val; omega

/-- What point t writes back is block t of the whole-array function: the point's output block read at an index is
    the radial kernel of the point's input blocks there, and each input block sits in its array where the
    output's rectangle says. -/
theorem flushed_eq (m : (ℓ : Loc nD τ sig) → Buf (Elt Ideal) ℓ) (c : Dev nD) (t : Fin cfg0.N) :
    (dats (F := Ideal) m 0 c).flushed 4 t = ((cfg0.win 4).blk t).view.read (Elt Ideal) (G m c) := by
  show (cfg0.win 4).cut (grid0.coords t) ((dats m 0 c).after 4 t) = _
  rw [after0_4]
  unfold outsAt0
  funext y
  obtain ⟨p, q, rfl⟩ : ∃ (p : Fin 1024) (q : Fin 2048), y = ix2 p q := ⟨y 0, y 1, eq_ix2 y⟩
  obtain ⟨e0, e1, e2, e3, e4, e5, e6, e7, e8, e9⟩ := idx_facts t
  have hr : win0_4.index t (0 : Fin 2) * 1024 + p.val < 8192 := by have := p.isLt; omega
  have hs : win0_4.index t (1 : Fin 2) * 2048 + q.val < 8192 := by have := q.isLt; omega
  show out0_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (ix2 p q)
    = G m c (((cfg0.win 4).blk t).view.emb (ix2 p q))
  rw [out0_A_4_apply]
  have hemb : ((cfg0.win 4).blk t).view.emb (ix2 p q) = (ix2 (⟨_, hr⟩ : Fin 8192) (⟨_, hs⟩ : Fin 8192) : S8192x8192.Idx) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 2048 + 1 * q.val = win0_4.index t (1 : Fin 2) * 2048 + q.val; omega
  rw [hemb, G_apply]
  exact kform_congr (nrow_blk m c t p ⟨_, hr⟩ rfl) (ncol_blk m c t q ⟨_, hs⟩ rfl)
    (Finset.sum_congr rfl fun k _ => congrArg₂ (· * ·) (fyT_blk m c t k p ⟨_, hr⟩ rfl) (fxT_blk m c t k q ⟨_, hs⟩ rfl))

/-- An index of the array is in point t's block iff each coordinate is in the block's range on its axis. -/
theorem mem_blk (t : Fin cfg0.N) (i : S8192x8192.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v65).slice (win0_4.rect t)).set ↔ _
  rw [View.set_slice_whole, Rect.mem_set_unit]
  exact Iff.rfl

/-- The blocks cover the array: entry (r, s) is in the block of the point at (r / 1024, s / 2048). -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-- The output array after the region is the whole-array function. -/
theorem arr_eq (m : (ℓ : Loc nD τ sig) → Buf (Elt Ideal) ℓ) (c : Dev nD) :
    (dats (F := Ideal) m 0 c).arrAt 4 cfg0.N = G m c :=
  (dats m 0 c).arrAt_eq_of_cover 4 (G m c) (fun t _ => flushed_eq m c t) cover

/-- Entry (i, j) of the output array after the region: the radial kernel of row point i and column point j. -/
theorem arr_apply (m : (ℓ : Loc nD τ sig) → Buf (Elt Ideal) ℓ) (c : Dev nD) (i j : Fin 8192) :
    ((dats (F := Ideal) m 0 c).arrAt 4 cfg0.N : S8192x8192.Idx → EReal) (ix2 i j)
      = kform (nrow m c (ix2 i (0 : Fin 1))) (ncol m c (ix2 (0 : Fin 1) j)) (∑ k : Fin 16, fyT m c (ix2 k i) * fxT m c (ix2 k j)) :=
  (congrFun (arr_eq m c) (ix2 i j)).trans (G_apply m c i j)

end Cert.Rbf

end
-- ==== Proof.KPrefix.lean ====
/-
  The four arrays the region reads, as the host operations before it leave them, read at an index through the
  reference's stages of the same names.
-/
import proofs.«152576_j2911987826854_2_alg».proof.Proof.KEntry
import proofs.«152576_j2911987826854_2_alg».proof.Proof.Gen.ReferenceIdeal.Read
import Idealize.ShloMosaic.Lib.ValueIdx
import Idealize.ShloMosaic.Lib.Pipeline.Value
import Idealize.ShloMosaic.Lib.ValueLayout
import Idealize.ShloMosaic.Lib.StableHlo.Run

noncomputable section

namespace Cert.Rbf

open Idealize.ShloMosaic Idealize.ShloMosaic.TcCoe Idealize.ShloMosaic.ValueIdx Cert.KernelIdeal Cert.KernelIdeal.Gen

/-! ## The host operations before the region, read over any starting contents

Each of the arrays the region reads is a few layout operations on top of one of the reference's stages: the host
operations that produce it are, operation for operation, the reference's. -/

section Reads

variable (X : Valuation τ sig (Elt Ideal))

set_option maxHeartbeats 4000000 in
/-- The row features, narrowed (the identity on the extended reals) and transposed. -/
theorem prefix_read_v62 :
    (StableHlo.after (hostOps0 (F := Ideal)) X (Proc.devRef .tc main_v62) : S16x8192.Idx → EReal)
      = (transpose S16x8192 [1, 0] (truncf (F := Ideal) (φ := .f32) .bf16 (Cert.ReferenceIdeal.Read.val_main_v53 (F := Ideal) (X (Proc.devRef .tc main_arg1)) (X (Proc.devRef .tc main_arg2)) (X (Proc.devRef .tc main_arg3))) bitsLt_bf16_f32) transposes_S8192x16_S16x8192_1_0 : S16x8192.Idx → EReal) := by
  after_results_simp
  rfl

set_option maxHeartbeats 4000000 in
/-- The column features, narrowed and transposed. -/
theorem prefix_read_v64 :
    (StableHlo.after (hostOps0 (F := Ideal)) X (Proc.devRef .tc main_v64) : S16x8192.Idx → EReal)
      = (transpose S16x8192 [1, 0] (truncf (F := Ideal) (φ := .f32) .bf16 (Cert.ReferenceIdeal.Read.val_main_v26 (F := Ideal) (X (Proc.devRef .tc main_arg0)) (X (Proc.devRef .tc main_arg2)) (X (Proc.devRef .tc main_arg3))) bitsLt_bf16_f32) transposes_S8192x16_S16x8192_1_0 : S16x8192.Idx → EReal) := by
  after_results_simp
  rfl

set_option maxHeartbeats 4000000 in
/-- The row points' squared norms, laid out as a column. -/
theorem prefix_read_v56 :
    (StableHlo.after (hostOps0 (F := Ideal)) X (Proc.devRef .tc main_v56) : S8192x1.Idx → EReal)
      = broadcastInDim S8192x1 ![0] bcast_S8192_S8192x1_0 (Cert.ReferenceIdeal.Read.val_main_v55 (F := Ideal) (X (Proc.devRef .tc main_arg1)) (X (Proc.devRef .tc main_arg2)) (X (Proc.devRef .tc main_arg3))) := by
  after_results_simp
  rfl

set_option maxHeartbeats 4000000 in
/-- The column points' squared norms, laid out as a column and then reshaped to a row. -/
theorem prefix_read_v60 :
    (StableHlo.after (hostOps0 (F := Ideal)) X (Proc.devRef .tc main_v60) : S1x8192.Idx → EReal)
      = shapeCast S1x8192 (broadcastInDim S8192x1 ![0] bcast_S8192_S8192x1_0 (Cert.ReferenceIdeal.Read.val_main_v58 (F := Ideal) (X (Proc.devRef .tc main_arg0)) (X (Proc.devRef .tc main_arg2)) (X (Proc.devRef .tc main_arg3)))) shapeCasts_S8192x1_S1x8192 := by
  after_results_simp
  rfl

end Reads

/-! ## The layout operations on top, read at an index -/

/-- A narrowed and transposed matrix at (k, i) is the matrix at (i, k). -/
theorem layout_transpose_truncf_apply (y : S8192x16.Idx → EReal) (k : Fin 16) (i : Fin 8192) :
    (transpose S16x8192 [1, 0] (truncf (F := Ideal) (φ := .f32) .bf16 y bitsLt_bf16_f32) transposes_S8192x16_S16x8192_1_0 : S16x8192.Idx → EReal) (ix2 k i)
      = y (ix2 i k) := by
  rw [transpose_apply [1, 0] _ transposes_S8192x16_S16x8192_1_0 (ix2 k i) (ix2 i k) (fun b => match b with
    | ⟨0, _⟩ => rfl
    | ⟨1, _⟩ => rfl)]
  rfl

/-- A vector laid out as a column, at (i, 0), is the vector at i. -/
theorem layout_column_apply (y : S8192.Idx → EReal) (i : Fin 8192) :
    (broadcastInDim S8192x1 ![0] bcast_S8192_S8192x1_0 y : S8192x1.Idx → EReal) (ix2 i (0 : Fin 1)) = y (ix1 i) :=
  broadcastInDim_apply _ bcast_S8192_S8192x1_0 y (ix2 i (0 : Fin 1)) (ix1 i) (fun a => match a with
    | ⟨0, _⟩ => by show i.val = if (8192 : Nat) = 1 then 0 else i.val; rw [if_neg (by decide)])

/-- A vector laid out as a column and reshaped to a row, at (0, j), is the vector at j: both positions are the j-th in
    row-major order. -/
theorem layout_row_apply (y : S8192.Idx → EReal) (j : Fin 8192) :
    (shapeCast S1x8192 (broadcastInDim S8192x1 ![0] bcast_S8192_S8192x1_0 y) shapeCasts_S8192x1_S1x8192 : S1x8192.Idx → EReal) (ix2 (0 : Fin 1) j)
      = y (ix1 j) := by
  rw [shapeCast_apply _ shapeCasts_S8192x1_S1x8192 (ix2 (0 : Fin 1) j) (ix2 j (0 : Fin 1))
    (by rewrite [Shape.rowMajor_val_two, Shape.rowMajor_val_two]; show j.val * 1 + 0 = 0 * 8192 + j.val; omega)]
  exact layout_column_apply y j

/-! ## The four arrays as the region finds them -/

variable (m : (ℓ : Loc nD τ sig) → Buf (Elt Ideal) ℓ) (c : Dev nD)

/-- The row norm at i is the reference's row sum of the squared row features at i. -/
theorem nrow_apply (i : Fin 8192) :
    nrow m c (ix2 i (0 : Fin 1))
      = Cert.ReferenceIdeal.Read.val_main_v55 (F := Ideal) (m ((c.tc : Thread nD τ).loc main_arg1)) (m ((c.tc : Thread nD τ).loc main_arg2)) (m ((c.tc : Thread nD τ).loc main_arg3)) (ix1 i) := by
  show (StableHlo.after (hostOps0 (F := Ideal)) (fun b => m (c, b)) (Proc.devRef .tc main_v56) : S8192x1.Idx → EReal) (ix2 i (0 : Fin 1)) = _
  rw [prefix_read_v56]
  exact layout_column_apply _ i

/-- The column norm at j is the reference's row sum of the squared column features at j. -/
theorem ncol_apply (j : Fin 8192) :
    ncol m c (ix2 (0 : Fin 1) j)
      = Cert.ReferenceIdeal.Read.val_main_v58 (F := Ideal) (m ((c.tc : Thread nD τ).loc main_arg0)) (m ((c.tc : Thread nD τ).loc main_arg2)) (m ((c.tc : Thread nD τ).loc main_arg3)) (ix1 j) := by
  show (StableHlo.after (hostOps0 (F := Ideal)) (fun b => m (c, b)) (Proc.devRef .tc main_v60) : S1x8192.Idx → EReal) (ix2 (0 : Fin 1) j) = _
  rw [prefix_read_v60]
  exact layout_row_apply _ j

/-- The transposed row features at (k, i) are the reference's row features at (i, k). -/
theorem fyT_apply (k : Fin 16) (i : Fin 8192) :
    fyT m c (ix2 k i)
      = Cert.ReferenceIdeal.Read.val_main_v53 (F := Ideal) (m ((c.tc : Thread nD τ).loc main_arg1)) (m ((c.tc : Thread nD τ).loc main_arg2)) (m ((c.tc : Thread nD τ).loc main_arg3)) (ix2 i k) := by
  show (StableHlo.after (hostOps0 (F := Ideal)) (fun b => m (c, b)) (Proc.devRef .tc main_v62) : S16x8192.Idx → EReal) (ix2 k i) = _
  rw [prefix_read_v62]
  exact layout_transpose_truncf_apply _ k i

/-- The transposed column features at (k, j) are the reference's column features at (j, k). -/
theorem fxT_apply (k : Fin 16) (j : Fin 8192) :
    fxT m c (ix2 k j)
      = Cert.ReferenceIdeal.Read.val_main_v26 (F := Ideal) (m ((c.tc : Thread nD τ).loc main_arg0)) (m ((c.tc : Thread nD τ).loc main_arg2)) (m ((c.tc : Thread nD τ).loc main_arg3)) (ix2 j k) := by
  show (StableHlo.after (hostOps0 (F := Ideal)) (fun b => m (c, b)) (Proc.devRef .tc main_v64) : S16x8192.Idx → EReal) (ix2 k j) = _
  rw [prefix_read_v64]
  exact layout_transpose_truncf_apply _ k j

end Cert.Rbf

end
-- ==== Proof.KTail.lean ====
/-
  The two results the host operations after the region compute, as the reference's stages of the arguments.
-/
import proofs.«152576_j2911987826854_2_alg».proof.Proof.Gen.KernelIdeal.Frame.Runs
import proofs.«152576_j2911987826854_2_alg».proof.Proof.Gen.ReferenceIdeal.Read
import Idealize.ShloMosaic.Lib.StableHlo.Run

noncomputable section

namespace Cert.Rbf

open Idealize.ShloMosaic Idealize.ShloMosaic.TcCoe Cert.KernelIdeal Cert.KernelIdeal.Gen
open Idealize.ShloMosaic.Pipeline (Dat)

variable (m : (ℓ : Loc nD τ sig) → Buf (Elt Ideal) ℓ)

/-! The host operations after the region read only the program's arguments. Read over an arbitrary valuation
    of the buffers, each result buffer holds the reference's stage applied to the valuation at the arguments:
    the two programs apply the same operations in the same order, so once every operation's result is read
    at its own buffer the two composed terms coincide. -/

set_option maxRecDepth 8192 in
set_option maxHeartbeats 4000000 in
/-- The first result: the gathered and concatenated feature matrix through two dense layers, the first
    followed by a bias and a maximum with zero. -/
theorem tail_read92 (X : Valuation τ sig (Elt Ideal)) :
    StableHlo.after (List.flatten [hostOps1, hostOps1_1, hostOps1_2] : List (HloOp τ sig (Elt Ideal))) X (Proc.devRef .tc main_v92)
      = Cert.ReferenceIdeal.Read.val_main_v101 (F := Ideal) (X (Proc.devRef .tc main_arg0)) (X (Proc.devRef .tc main_arg4)) (X (Proc.devRef .tc main_arg5)) (X (Proc.devRef .tc main_arg6)) (X (Proc.devRef .tc main_arg7)) (X (Proc.devRef .tc main_arg8)) := by
  simp only [hostOps1, hostOps1_1, hostOps1_2, List.flatten_cons, List.flatten_nil, List.append_nil, List.cons_append, List.nil_append]
  open Idealize.ShloMosaic.StableHlo in after_results_simp
  rfl

set_option maxRecDepth 8192 in
set_option maxHeartbeats 4000000 in
/-- The second result: the row sums of the elementwise product of two gathered matrices. -/
theorem tail_read113 (X : Valuation τ sig (Elt Ideal)) :
    StableHlo.after (List.flatten [hostOps1, hostOps1_1, hostOps1_2] : List (HloOp τ sig (Elt Ideal))) X (Proc.devRef .tc main_v113)
      = Cert.ReferenceIdeal.Read.val_main_v122 (F := Ideal) (X (Proc.devRef .tc main_arg0)) (X (Proc.devRef .tc main_arg9)) (X (Proc.devRef .tc main_arg10)) := by
  simp only [hostOps1, hostOps1_1, hostOps1_2, List.flatten_cons, List.flatten_nil, List.append_nil, List.cons_append, List.nil_append]
  open Idealize.ShloMosaic.StableHlo in after_results_simp
  rfl

/-- An argument that no window of the region stages and no host operation before the region writes holds,
    when the region ends, what the launch found there. -/
theorem arg_after_region (dats : (p : Fin 1) → (c : Dev nD) → Dat τ (Elt Ideal) Unit ℕ (UR sig nD τ) ℕ (cfgs p) c) (c : Dev nD)
    (b : Ref sig .tc) (hb : ∀ w, Pipeline.arrRef spec0 w ≠ b) (hV : V m c b = m ((c.tc : Thread nD τ).loc b)) :
    Pipeline.withArrays (cfgs 0).spec c (V0 m c) (fun w => (dats 0 c).arrAt w (cfgs 0).N) (Proc.devRef .tc b)
      = m ((c.tc : Thread nD τ).loc b) := by
  rw [Pipeline.withArrays_of_ne _ c (V0 m c) _ b (by exact hb)]
  exact hV

/-- The prediction result after the region is the reference's stage of the arguments it reads. -/
theorem tail_v92 (dats : (p : Fin 1) → (c : Dev nD) → Dat τ (Elt Ideal) Unit ℕ (UR sig nD τ) ℕ (cfgs p) c) (c : Dev nD) :
    Pipeline.afterTail₀ cfgs dats 0 (V0 m) [hostOps1, hostOps1_1, hostOps1_2] c main_v92
      = Cert.ReferenceIdeal.Read.val_main_v101 (F := Ideal) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  rw [tail_read92,
    arg_after_region m dats c main_arg0 (by decide) (V_main_arg0 m c),
    arg_after_region m dats c main_arg4 (by decide) (V_main_arg4 m c),
    arg_after_region m dats c main_arg5 (by decide) (V_main_arg5 m c),
    arg_after_region m dats c main_arg6 (by decide) (V_main_arg6 m c),
    arg_after_region m dats c main_arg7 (by decide) (V_main_arg7 m c),
    arg_after_region m dats c main_arg8 (by decide) (V_main_arg8 m c)]

/-- The weight result after the region is the reference's stage of the arguments it reads. -/
theorem tail_v113 (dats : (p : Fin 1) → (c : Dev nD) → Dat τ (Elt Ideal) Unit ℕ (UR sig nD τ) ℕ (cfgs p) c) (c : Dev nD) :
    Pipeline.afterTail₀ cfgs dats 0 (V0 m) [hostOps1, hostOps1_1, hostOps1_2] c main_v113
      = Cert.ReferenceIdeal.Read.val_main_v122 (F := Ideal) (m ((c.tc : Thread nD τ).loc main_arg0)) (m ((c.tc : Thread nD τ).loc main_arg9)) (m ((c.tc : Thread nD τ).loc main_arg10)) := by
  unfold Pipeline.afterTail₀
  rw [tail_read113,
    arg_after_region m dats c main_arg0 (by decide) (V_main_arg0 m c),
    arg_after_region m dats c main_arg9 (by decide) (V_main_arg9 m c),
    arg_after_region m dats c main_arg10 (by decide) (V_main_arg10 m c)]

end Cert.Rbf

end
-- ==== Proof.RefK.lean ====
/-
  The reference's kernel matrix read at an index: entry (i, j) is the radial kernel's entry of the squared norm of row
  point i, the squared norm of column point j and the inner product of their two feature vectors.
-/
import proofs.«152576_j2911987826854_2_alg».proof.Proof.Gen.ReferenceIdeal.Read
import proofs.«152576_j2911987826854_2_alg».proof.Proof.Spec
import Idealize.ShloMosaic.Lib.ValueIdx
import Idealize.ShloMosaic.PureOps.Ideal.Laws

noncomputable section

namespace Cert.Rbf

open Idealize.ShloMosaic Idealize.ShloMosaic.ValueIdx Cert.ReferenceIdeal Cert.ReferenceIdeal.Read
open scoped BigOperators

/-- The negation the reference writes, `−d`, is the body's `0 − d` on every extended real; its `sqrt` and `exp` on the
    host are the body's. -/
theorem kform_host (a b s : Ideal .f32) :
    FloatOps.hostUnary .exp (FloatOps.mulf (FloatOps.hostNegf (FloatOps.hostUnary .sqrt (FloatOps.maximumf
      (FloatOps.subf (FloatOps.addf a b) (FloatOps.mulf (FloatOps.ofBits .f32 0x40000000#32) s)) (FloatOps.ofBits .f32 0x00000000#32))))
      (FloatOps.ofBits .f32 0x3DCCCCCD#32)) = kform a b s := by
  unfold kform
  simp only [Ideal.hostUnary_exp_def, Ideal.exp_def, Ideal.hostNegf_def, Ideal.negf_def, Ideal.hostUnary_sqrt_def, Ideal.sqrt_def,
    Ideal.subf_def, Ideal.ofBits_def, Ideal.ofBits_zero_f32, zero_sub]

variable (x0 x1 : (⟨S8192x2, .i32⟩ : BufTy).Contents (Elt Ideal)) (x2 x3 : (⟨S50000x8, .f32⟩ : BufTy).Contents (Elt Ideal))

/-- Entry (i, j) of the reference's kernel matrix: the broadcasts, the whole matrix product and the pointwise chain read at
    the index, the transposed operand read back at (j, k). -/
theorem ref_apply (i j : Fin 8192) :
    val_main_v74 (F := Ideal) x0 x1 x2 x3 (ix2 i j)
      = kform (val_main_v55 (F := Ideal) x1 x2 x3 (ix1 i)) (val_main_v58 (F := Ideal) x0 x2 x3 (ix1 j))
          (∑ k : Fin 16, val_main_v53 (F := Ideal) x1 x2 x3 (ix2 i k) * val_main_v26 (F := Ideal) x0 x2 x3 (ix2 j k)) := by
  have e1 : idx_main_v56 (idx_main_v60 (ix2 i j)) = ix1 i := funext fun a => Fin.ext (by match a with | ⟨0, _⟩ => rfl)
  have e2 : idx_main_v59 (idx_main_v61 (ix2 i j)) = ix1 j := funext fun a => Fin.ext (by match a with | ⟨0, _⟩ => rfl)
  have e3 : ∀ k : Fin 16, lidx_main_v64 (ix2 i j) k = ix2 i k := fun k => funext fun a => Fin.ext (by match a with | ⟨0, _⟩ => rfl | ⟨1, _⟩ => rfl)
  have e4 : ∀ k : Fin 16, idx_main_v63 (ridx_main_v64 (ix2 i j) k) = ix2 j k := fun k => funext fun a => Fin.ext (by match a with | ⟨0, _⟩ => rfl | ⟨1, _⟩ => rfl)
  rw [val_main_v74_apply, val_main_v73_apply, val_main_v71_apply, val_main_v70_apply, val_main_v69_apply, val_main_v67_apply,
    val_main_v62_apply, val_main_v66_apply, val_main_v60_apply, val_main_v61_apply, val_main_v56_apply, val_main_v59_apply,
    val_main_v64_apply, val_main_v65_apply, val_main_v68_apply, val_main_v72_apply, val_main_cst_14_apply, val_main_cst_15_apply,
    val_main_cst_16_apply, e1, e2]
  simp only [val_main_v63_apply, e3, e4]
  exact kform_host _ _ _

end Cert.Rbf

end
-- ==== Proof.KRun.lean ====
/-
  The idealized kernel's run with its three results named: the kernel matrix after the region is, entry by entry, the
  reference's (its blocks are the radial kernel's entries of the norms and features the host prefix computes, and those
  are the reference's stages); the two results of the host operations after the region are the reference's stages.
-/
import proofs.«152576_j2911987826854_2_alg».proof.Proof.Gen.KernelIdeal.Frame
import proofs.«152576_j2911987826854_2_alg».proof.Proof.KArray
import proofs.«152576_j2911987826854_2_alg».proof.Proof.KPrefix
import proofs.«152576_j2911987826854_2_alg».proof.Proof.KTail
import proofs.«152576_j2911987826854_2_alg».proof.Proof.RefK

noncomputable section

namespace Cert.Rbf

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The kernel matrix after the region is the reference's last stage of the same four arguments. -/
theorem K_final (c : Dev nD) :
    ((dats (F := Ideal) m 0 c).arrAt 4 cfg0.N : S8192x8192.Idx → EReal)
      = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) := by
  refine funext fun (y : S8192x8192.Idx) => ?_
  obtain ⟨i, j, rfl⟩ : ∃ (i j : Fin 8192), y = ix2 i j := ⟨y 0, y 1, eq_ix2 y⟩
  rw [arr_apply, ref_apply, nrow_apply, ncol_apply]
  exact congrArg (kform _ _) (Finset.sum_congr rfl fun k _ => by rw [fyT_apply, fxT_apply])

/-- Every weakly fair execution of the idealized kernel program ends with its three results at the reference's stages
    of the arguments, the arguments unchanged. -/
theorem kernel_run : θ_run defs (onTc (τ := τ) (main (F := Ideal))) ⟨m, fun _ => 0, ρ⟩ (fun r => ∀ c : Dev nD,
      r.2.mem ((c.tc : Thread nD τ).loc main_v65) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v92) = Cert.ReferenceIdeal.Read.val_main_v101 (F := Ideal) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v113) = Cert.ReferenceIdeal.Read.val_main_v122 (F := Ideal) (m ((c.tc : Thread nD τ).loc main_arg0)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 4).trans (K_final m c),
      ((h c).2 main_v92 (Pipeline.mem_restRefs_of main_v92 (by decide) (by decide))).trans (tail_v92 m (dats m) c),
      ((h c).2 main_v113 (Pipeline.mem_restRefs_of main_v113 (by decide) (by decide))).trans (tail_v113 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.Rbf

end
-- ==== Proof.lean ====
/-
  The certificate of the pairwise radial kernel exp(−0.1·‖y_i − x_j‖) over two sets of 8192 embedded points, computed
  by one tiled kernel (the squared distance by the Gram identity ‖y‖² + ‖x‖² − 2⟨y, x⟩, an 8 × 4 grid of 1024 × 2048
  blocks, each block in four 512-column tiles), against the plain array program, at the ideal values.

  Both programs build the two feature matrices by the SAME host operations (two gathers joined, a global shift, a
  division by 16) and differ only in how the kernel matrix is arranged: the kernel reads the features transposed and
  narrowed (the identity on the extended reals), takes the inner products on the matrix unit block by block, and writes
  the negation as 0 − d; the reference takes one whole matrix product and negates. Entry by entry both are
  exp((−√max(n_i + n_j − 2 s_ij, 0))·0.1) of the same norms n and the same inner products s: no law of arithmetic beyond
  0 − d = −d is used, so the precondition is never opened. The two further results (a small dense network's prediction
  and a row-wise inner product of two gathered tables) are computed after the kernel by the same host operations in both
  programs.

  The modules: Spec (the entry as a function of two norms and an inner product), KPayload (a tile's entry), KBlock (a
  grid point's block from its four tiles), KArray (the whole matrix from the blocks), KEntry / KPrefix (the arrays the
  kernel reads, through the reference's stages), KTail (the results computed after the kernel), RefK (the reference's
  entry), KRun (the kernel program's run with its results named). Here: the five claims.
-/
import proofs.«152576_j2911987826854_2_alg».proof.Defs
import proofs.«152576_j2911987826854_2_alg».proof.Proof.Gen.Kernel
import proofs.«152576_j2911987826854_2_alg».proof.Proof.Gen.Kernel.Frame
import proofs.«152576_j2911987826854_2_alg».proof.Proof.Gen.KernelIdeal
import proofs.«152576_j2911987826854_2_alg».proof.Proof.Gen.KernelIdeal.Frame
import proofs.«152576_j2911987826854_2_alg».proof.Proof.Gen.ReferenceIdeal
import proofs.«152576_j2911987826854_2_alg».proof.Proof.Gen.ReferenceIdeal.Run
import proofs.«152576_j2911987826854_2_alg».proof.Proof.Gen.ReferenceIdeal.Read
import proofs.«152576_j2911987826854_2_alg».proof.Proof.Gen.Pre_finite_inputs
import proofs.«152576_j2911987826854_2_alg».proof.Proof.KRun
import Idealize.ShloMosaic.Adequacy
import Idealize.ShloMosaic.Init

noncomputable section

namespace Cert.Proof

open Idealize.ShloMosaic Idealize.SL.Sem

/-- The word-level kernel program runs and leaves its arguments as they were: the generated frame. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the three results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories agreeing on the arguments both idealized programs end with the reference's three stages of the
    kernel program's arguments: the kernel program by its run with the results named, the reference by its own run
    and the agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.Rbf.kernel_run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v74_eq, (hagree c).1, (hagree c).2.1, (hagree c).2.2.1, (hagree c).2.2.2.1]
  · rw [(hagree c).1, (hagree c).2.2.2.2.1, (hagree c).2.2.2.2.2.1, (hagree c).2.2.2.2.2.2.1, (hagree c).2.2.2.2.2.2.2.1, (hagree c).2.2.2.2.2.2.2.2.1]
    exact Cert.ReferenceIdeal.Read.val_main_v101_eq _ _ _ _ _ _
  · rw [(hagree c).1, (hagree c).2.2.2.2.2.2.2.2.2.1, (hagree c).2.2.2.2.2.2.2.2.2.2]
    exact Cert.ReferenceIdeal.Read.val_main_v122_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
